-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S128x256 .f32) (main_arg3 : FVec F S128 .f32) (main_arg4 : FVec F S64x128 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S256x128 : Shape := ⟨2, ![256, 128]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 71
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S256x128, .f32⟩
  | .hbm, ⟨29, _⟩ => ⟨S100000x128, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S128x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S256x128 : Shape := ⟨2, ![256, 128]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S256x128, .f32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S128x64, .f32⟩
  | .hbm, ⟨71, _⟩ => ⟨S100000x64, .f32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x64, .f32⟩
  | .hbm, ⟨114, _⟩ => ⟨S1700000x1, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S128x256_S256x128_1_0 : S128x256.Transposes [1, 0] S256x128
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result kept.

  @main is nine segments: host operations, the first dense layer's region, host operations, the second dense layer's
  region, host operations.  The frame run of the segments ends with every unscoped buffer at the last boundary's
  contents, a fold of the segments over the launch memory; read at the result buffer this is the program's result,
  and at the argument buffers the arguments as launched.
-/
import proofs.«172544_j9491877724922_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«172544_j9491877724922_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.Region0.lean ====
/-
  The first dense layer's region as one function of the arrays it finds.

  The region runs 20 grid points; point t stages rows [5000 t, 5000 t + 5000) of the input array X and of the
  weight column D, and the whole weight matrix W, and writes back rows [5000 t, 5000 t + 5000) of the output.  The
  body's value on a row tile is the row tile of  (X · W) (v, f) · D v  — a product with W reads only its own row of
  X, the column D is repeated across the output's columns, and a change of float format is the identity on the
  extended reals — so the 20 blocks, which cover the output array, leave it holding that function.
-/
import proofs.«172544_j9491877724922_2_alg».proof.Proof.Gen.KernelIdeal.Frame
import proofs.«172544_j9491877724922_2_alg».proof.Proof.LibTileMore

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays: (X · W) (v, f) · D v. -/
def G (X : S100000x256.Idx → EReal) (W : S256x128.Idx → EReal) (D : S100000x1.Idx → EReal) : S100000x128.Idx → EReal :=
  fun i => Ideal.matmul (DotDims.plain 100000 256 128) X W (fun _ => 0) i
    * broadcastInDim ⟨2, ![100000, 128]⟩ ![0, 1] (Tile.bidCol 100000 128) D i

/-- The body's value on a row tile is the row tile of the layer. -/
theorem pay_tile {r0 : Nat} (hr : r0 + 5000 ≤ 100000) (x0 : Vec Ideal S5000x256 .f32) (x1 : Vec Ideal S256x128 .f32)
    (x2 : Vec Ideal S5000x1 .f32) (X : S100000x256.Idx → EReal) (D : S100000x1.Idx → EReal)
    (h0 : Tile.IsTile r0 hr x0 X) (h2 : Tile.IsTile r0 hr x2 D) :
    Tile.IsTile r0 hr (k0_pay1 x0 x1 x2) (G X x1 D) := by
  unfold k0_pay1 G
  simp only [shapeCast_self]
  exact Tile.vMul (Tile.vMatmul _ rfl none _ (Tile.vTrunc .bf16 _ h0)) (Tile.colRep _ _ h2)

/-- The printed index maps over the grid: the row-tiled windows sit at block row t, the weight window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N_eq : cfg0.N = 20 := N_0

/-- Point t's block of the input array is its rows from 5000 t. -/
theorem tile_x (c : Dev nD) (t : Fin cfg0.N) (hr : 5000 * t.val + 5000 ≤ 100000) :
    Tile.IsTile (5000 * t.val) hr (iblk0 V c 0 t) (V c main_arg0) := by
  intro p l
  obtain ⟨e0, e1, -⟩ := idx_facts t
  show V c main_arg0 (((cfg0.win 0).blk t).view.emb (ix2 p l)) = V c main_arg0 (ix2 ⟨5000 * t.val + p.val, by omega⟩ l)
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 256 + 1 * l.val = l.val; omega

/-- Point t's block of the weight column is its rows from 5000 t. -/
theorem tile_d (c : Dev nD) (t : Fin cfg0.N) (hr : 5000 * t.val + 5000 ≤ 100000) :
    Tile.IsTile (5000 * t.val) hr (iblk0 V c 2 t) (V c main_v15) := by
  intro p l
  obtain ⟨-, -, -, -, e4, e5, -⟩ := idx_facts t
  show V c main_v15 (((cfg0.win 2).blk t).view.emb (ix2 p l)) = V c main_v15 (ix2 ⟨5000 * t.val + p.val, by omega⟩ l)
  refine congrArg (V c main_v15) (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * l.val = l.val; omega

/-- Every point stages the whole weight matrix. -/
theorem whole_w (c : Dev nD) (t : Fin cfg0.N) : iblk0 V c 1 t = V c main_v16 := by
  funext y
  obtain ⟨-, -, e2, e3, -⟩ := idx_facts t
  show V c main_v16 (((cfg0.win 1).blk t).view.emb y) = V c main_v16 y
  refine congrArg (V c main_v16) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- What point t writes back is block t of the layer of the arrays the region finds. -/
theorem flushed_eq (c : Dev nD) (t : Fin cfg0.N) :
    (dat0 V c).flushed 3 t = ((cfg0.win 3).blk t).view.read (Elt Ideal) (G (V c main_arg0) (V c main_v16) (V c main_v15)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S5000x1) hz]
  have ht : t.val < 20 := lt_of_lt_of_eq t.isLt N_eq
  have hr : 5000 * t.val + 5000 ≤ 100000 := by omega
  obtain ⟨-, -, -, -, -, -, e6, e7⟩ := idx_facts t
  funext j
  obtain ⟨p, l, rfl⟩ : ∃ (p : Fin 5000) (l : Fin 128), j = ix2 p l := ⟨j 0, j 1, eq_ix2 j⟩
  rw [whole_w V c t]
  refine (pay_tile hr _ _ _ _ _ (tile_x V c t hr) (tile_d V c t hr) p l).trans ?_
  show G (V c main_arg0) (V c main_v16) (V c main_v15) (ix2 ⟨5000 * t.val + p.val, by omega⟩ l)
    = G (V c main_arg0) (V c main_v16) (V c main_v15) (((cfg0.win 3).blk t).view.emb (ix2 p l))
  refine congrArg (G (V c main_arg0) (V c main_v16) (V c main_v15)) (funext fun a => Fin.ext ?_)
  match a with
  | ⟨0, _⟩ => show 5000 * t.val + p.val = win0_3.index t (0 : Fin 2) * 5000 + 1 * p.val; omega
  | ⟨1, _⟩ => show l.val = win0_3.index t (1 : Fin 2) * 128 + 1 * l.val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row r of the output is in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN := N_eq
  refine ⟨⟨(i 0).val / 5000, by rw [hN]; omega⟩, flush0_3 _, ?_⟩
  rw [mem_blk]
  obtain ⟨-, -, -, -, -, -, e6, e7⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- The output array after the region is the layer of the arrays the region finds. -/
theorem final (c : Dev nD) :
    (dat0 V c).arrAt 3 cfg0.N = G (V c main_arg0) (V c main_v16) (V c main_v15) :=
  (dat0 V c).arrAt_eq_of_cover 3 _ (fun t _ => flushed_eq V c t) cover

end Cert.KernelIdeal.Region0

end
-- ==== Proof.Region1.lean ====
/-
  The second dense layer's region as one function of the arrays it finds.

  The region runs 20 grid points; point t stages rows [5000 t, 5000 t + 5000) of the input array X and of the
  weight column D, and the whole weight matrix W, and writes back rows [5000 t, 5000 t + 5000) of the output.  The
  body's value on a row tile is the row tile of  (X · W) (v, f) · D v  — a product with W reads only its own row of
  X, the column D is repeated across the output's columns, and a change of float format is the identity on the
  extended reals — so the 20 blocks, which cover the output array, leave it holding that function.
-/
import proofs.«172544_j9491877724922_2_alg».proof.Proof.Gen.KernelIdeal.Frame
import proofs.«172544_j9491877724922_2_alg».proof.Proof.LibTileMore

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays: (X · W) (v, f) · D v. -/
def G (X : S100000x128.Idx → EReal) (W : S128x64.Idx → EReal) (D : S100000x1.Idx → EReal) : S100000x64.Idx → EReal :=
  fun i => Ideal.matmul (DotDims.plain 100000 128 64) X W (fun _ => 0) i
    * broadcastInDim ⟨2, ![100000, 64]⟩ ![0, 1] (Tile.bidCol 100000 64) D i

/-- The body's value on a row tile is the row tile of the layer. -/
theorem pay_tile {r0 : Nat} (hr : r0 + 5000 ≤ 100000) (x0 : Vec Ideal S5000x128 .f32) (x1 : Vec Ideal S128x64 .f32)
    (x2 : Vec Ideal S5000x1 .f32) (X : S100000x128.Idx → EReal) (D : S100000x1.Idx → EReal)
    (h0 : Tile.IsTile r0 hr x0 X) (h2 : Tile.IsTile r0 hr x2 D) :
    Tile.IsTile r0 hr (k1_pay1 x0 x1 x2) (G X x1 D) := by
  unfold k1_pay1 G
  simp only [shapeCast_self]
  exact Tile.vMul (Tile.vMatmul _ rfl none _ (Tile.vTrunc .bf16 _ h0)) (Tile.colRep _ _ h2)

/-- The printed index maps over the grid: the row-tiled windows sit at block row t, the weight window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem N_eq : cfg1.N = 20 := N_1

/-- Point t's block of the input array is its rows from 5000 t. -/
theorem tile_x (c : Dev nD) (t : Fin cfg1.N) (hr : 5000 * t.val + 5000 ≤ 100000) :
    Tile.IsTile (5000 * t.val) hr (iblk1 V c 0 t) (V c main_v33) := by
  intro p l
  obtain ⟨e0, e1, -⟩ := idx_facts t
  show V c main_v33 (((cfg1.win 0).blk t).view.emb (ix2 p l)) = V c main_v33 (ix2 ⟨5000 * t.val + p.val, by omega⟩ l)
  refine congrArg (V c main_v33) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * l.val = l.val; omega

/-- Point t's block of the weight column is its rows from 5000 t. -/
theorem tile_d (c : Dev nD) (t : Fin cfg1.N) (hr : 5000 * t.val + 5000 ≤ 100000) :
    Tile.IsTile (5000 * t.val) hr (iblk1 V c 2 t) (V c main_v15) := by
  intro p l
  obtain ⟨-, -, -, -, e4, e5, -⟩ := idx_facts t
  show V c main_v15 (((cfg1.win 2).blk t).view.emb (ix2 p l)) = V c main_v15 (ix2 ⟨5000 * t.val + p.val, by omega⟩ l)
  refine congrArg (V c main_v15) (funext fun a => Fin.ext ?_)
  match a with
  | ⟨0, _⟩ => show win1_2.index t (0 : Fin 2) * 5000 + 1 * p.val = 5000 * t.val + p.val; omega
  | ⟨1, _⟩ => show win1_2.index t (1 : Fin 2) * 1 + 1 * l.val = l.val; omega

/-- Every point stages the whole weight matrix. -/
theorem whole_w (c : Dev nD) (t : Fin cfg1.N) : iblk1 V c 1 t = V c main_v34 := by
  funext y
  obtain ⟨-, -, e2, e3, -⟩ := idx_facts t
  show V c main_v34 (((cfg1.win 1).blk t).view.emb y) = V c main_v34 y
  refine congrArg (V c main_v34) (funext fun a => Fin.ext ?_)
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- What point t writes back is block t of the layer of the arrays the region finds. -/
theorem flushed_eq (c : Dev nD) (t : Fin cfg1.N) :
    (dat1 V c).flushed 3 t = ((cfg1.win 3).blk t).view.read (Elt Ideal) (G (V c main_v33) (V c main_v34) (V c main_v15)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S5000x1) hz]
  have ht : t.val < 20 := lt_of_lt_of_eq t.isLt N_eq
  have hr : 5000 * t.val + 5000 ≤ 100000 := by omega
  obtain ⟨-, -, -, -, -, -, e6, e7⟩ := idx_facts t
  funext j
  obtain ⟨p, l, rfl⟩ : ∃ (p : Fin 5000) (l : Fin 64), j = ix2 p l := ⟨j 0, j 1, eq_ix2 j⟩
  rw [whole_w V c t]
  refine (pay_tile hr _ _ _ _ _ (tile_x V c t hr) (tile_d V c t hr) p l).trans ?_
  show G (V c main_v33) (V c main_v34) (V c main_v15) (ix2 ⟨5000 * t.val + p.val, by omega⟩ l)
    = G (V c main_v33) (V c main_v34) (V c main_v15) (((cfg1.win 3).blk t).view.emb (ix2 p l))
  refine congrArg (G (V c main_v33) (V c main_v34) (V c main_v15)) (funext fun a => Fin.ext ?_)
  match a with
  | ⟨0, _⟩ => show 5000 * t.val + p.val = win1_3.index t (0 : Fin 2) * 5000 + 1 * p.val; omega
  | ⟨1, _⟩ => show l.val = win1_3.index t (1 : Fin 2) * 64 + 1 * l.val; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v35).slice (win1_3.rect t)).set ↔ _
  rw [View.set_slice_whole, Rect.mem_set_unit]
  exact Iff.rfl

/-- Row r of the output is in the block of point r / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN := N_eq
  refine ⟨⟨(i 0).val / 5000, by rw [hN]; omega⟩, flush1_3 _, ?_⟩
  rw [mem_blk]
  obtain ⟨-, -, -, -, -, -, e6, e7⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

/-- The output array after the region is the layer of the arrays the region finds. -/
theorem final (c : Dev nD) :
    (dat1 V c).arrAt 3 cfg1.N = G (V c main_v33) (V c main_v34) (V c main_v15) :=
  (dat1 V c).arrAt_eq_of_cover 3 _ (fun t _ => flushed_eq V c t) cover

end Cert.KernelIdeal.Region1

end
-- ==== Proof.Spec.lean ====
/-
  The two-layer graph convolution written over whole arrays, in the kernel program's vocabulary.

  The source and target index arrays are the edge list followed by one self loop per node.  The weight of a node is
  D v = 1 / sqrt (deg v) where the in-degree count deg v is positive and 0 elsewhere, kept as an [N, 1] column.  A layer
  multiplies the node features by the transposed weight matrix and scales row v by D v (the dense part, one region of
  the kernel), gathers the scaled rows at the sources, adds them up at the targets, scales row v of the sum by D v and
  adds the bias; the first layer ends with the maximum with 0.
-/
import proofs.«172544_j9491877724922_2_alg».proof.Proof.Region0
import proofs.«172544_j9491877724922_2_alg».proof.Proof.Region1

set_option maxRecDepth 16384

noncomputable section

namespace Cert.KernelIdeal.Spec

open Cert.KernelIdeal Cert.KernelIdeal.Gen
open Idealize.ShloMosaic Idealize.ShloMosaic.TcCoe Idealize.ShloMosaic.StableHlo
open Idealize.SL Idealize.SL.Sem

/-- Row 0 of the edge list, then the node numbers: the source of every edge and self loop. -/
def srcArr (a1 : IVec S2x1600000 32) : IVec S1700000 32 :=
  concatenate S1700000 0 [⟨S1600000, shapeCast _ (extractStridedSlice S1x1600000 ![0, 0] a1 slices_S2x1600000_S1x1600000_0_0) shapeCasts_S1x1600000_S1600000⟩, ⟨S100000, iotaInDim S100000 32 0⟩] concatenates_S1600000_S100000_S1700000_d0

/-- Row 1 of the edge list, then the node numbers: the target of every edge and self loop. -/
def dstArr (a1 : IVec S2x1600000 32) : IVec S1700000 32 :=
  concatenate S1700000 0 [⟨S1600000, shapeCast _ (extractStridedSlice S1x1600000 ![1, 0] a1 slices_S2x1600000_S1x1600000_1_0) shapeCasts_S1x1600000_S1600000⟩, ⟨S100000, iotaInDim S100000 32 0⟩] concatenates_S1600000_S100000_S1700000_d0

/-- An index vector as the [E, 1] start-index array of a gather or scatter. -/
def col (s : IVec S1700000 32) : IVec S1700000x1 32 := broadcastInDim S1700000x1 ![0] bcast_S1700000_S1700000x1_0 s

/-- A negative index counted from the end (numpy's convention, applied before a gather). -/
def wrap (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The in-degree count: a 1 added at the target of every edge and self loop. -/
def deg (dst : IVec S1700000 32) : FVec Ideal S100000 .f32 :=
  Host.scatterAdd scatter_S100000_S1700000x1_S1700000_n_0_0_1 (broadcastInDim S100000 ![] bcast_S_S100000 (constant S_ .f32 0x00000000#32))
    (col dst) (broadcastInDim S1700000 ![] bcast_S_S1700000 (constant S_ .f32 0x3F800000#32))

/-- The weight of a node: 1 / sqrt (deg) where deg > 0, else 0. -/
def dinv (dst : IVec S1700000 32) : FVec Ideal S100000 .f32 :=
  select (cmpf .ogt (deg dst) (broadcastInDim S100000 ![] bcast_S_S100000 (constant S_ .f32 0x00000000#32)))
    (Host.rsqrt (deg dst)) (broadcastInDim S100000 ![] bcast_S_S100000 (id (constant S_ .f32 0x00000000#32)))

/-- The weights as an [N, 1] column. -/
def dinvCol (dst : IVec S1700000 32) : FVec Ideal S100000x1 .f32 := shapeCast _ (dinv dst) shapeCasts_S100000_S100000x1

/-- After the first region: gather the scaled rows at the sources, add them up at the targets, scale row v by D v,
    add the bias, take the maximum with 0. -/
def post1 (P : FVec Ideal S100000x128 .f32) (src dst : IVec S1700000 32) (Dc : FVec Ideal S100000x1 .f32)
    (b : FVec Ideal S128 .f32) : FVec Ideal S100000x128 .f32 :=
  maximumf
    (addf
      (mulf
        (Host.scatterAdd scatter_S100000x128_S1700000x1_S1700000x128_1_0_0_1
          (broadcastInDim S100000x128 ![] bcast_S_S100000x128 (constant S_ .f32 0x00000000#32)) (col dst)
          (Host.gather gather_S100000x128_S1700000x1_S1700000x128_1_0_n_n_0_1_1128 P (col (wrap src))))
        (broadcastInDim S100000x128 ![0, 1] bcast_S100000x1_S100000x128_0_1 Dc))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- After the second region: the same without the maximum. -/
def post2 (P : FVec Ideal S100000x64 .f32) (src dst : IVec S1700000 32) (Dc : FVec Ideal S100000x1 .f32)
    (b : FVec Ideal S64 .f32) : FVec Ideal S100000x64 .f32 :=
  addf
    (mulf
      (Host.scatterAdd scatter_S100000x64_S1700000x1_S1700000x64_1_0_0_1
        (broadcastInDim S100000x64 ![] bcast_S_S100000x64 (constant S_ .f32 0x00000000#32)) (col dst)
        (Host.gather gather_S100000x64_S1700000x1_S1700000x64_1_0_n_n_0_1_164 P (col (wrap src))))
      (broadcastInDim S100000x64 ![0, 1] bcast_S100000x1_S100000x64_0_1 Dc))
    (broadcastInDim S100000x64 ![0, 1] bcast_S1x64_S100000x64_0_1 (broadcastInDim S1x64 ![1] bcast_S64_S1x64_1 b))

/-- x · W1ᵀ, row v scaled by D v. -/
def lin1 (x : FVec Ideal S100000x256 .f32) (a1 : IVec S2x1600000 32) (w1 : FVec Ideal S128x256 .f32) : FVec Ideal S100000x128 .f32 :=
  Region0.G x (transpose S256x128 [1, 0] w1 transposes_S128x256_S256x128_1_0) (dinvCol (dstArr a1))

/-- The first layer's output. -/
def hid (x : FVec Ideal S100000x256 .f32) (a1 : IVec S2x1600000 32) (w1 : FVec Ideal S128x256 .f32) (b1 : FVec Ideal S128 .f32) :
    FVec Ideal S100000x128 .f32 :=
  post1 (lin1 x a1 w1) (srcArr a1) (dstArr a1) (dinvCol (dstArr a1)) b1

/-- h · W2ᵀ, row v scaled by D v. -/
def lin2 (h : FVec Ideal S100000x128 .f32) (a1 : IVec S2x1600000 32) (w2 : FVec Ideal S64x128 .f32) : FVec Ideal S100000x64 .f32 :=
  Region1.G h (transpose S128x64 [1, 0] w2 transposes_S64x128_S128x64_1_0) (dinvCol (dstArr a1))

/-- The kernel's result as one term of its six arguments. -/
def out (x : FVec Ideal S100000x256 .f32) (a1 : IVec S2x1600000 32) (w1 : FVec Ideal S128x256 .f32) (b1 : FVec Ideal S128 .f32)
    (w2 : FVec Ideal S64x128 .f32) (b2 : FVec Ideal S64 .f32) : FVec Ideal S100000x64 .f32 :=
  post2 (lin2 (hid x a1 w1 b1) a1 w2) (srcArr a1) (dstArr a1) (dinvCol (dstArr a1)) b2

end Cert.KernelIdeal.Spec

end
-- ==== Proof.KernelValue.lean ====
/-
  The idealized kernel's result as one term of its arguments.

  The host program around the two regions: the source and target index arrays (the edge list followed by one self loop
  per node), the weight  D v = 1 / sqrt (deg v)  where the in-degree count deg v is positive and 0 elsewhere, kept as an
  [N, 1] column; after each region the gather of the scaled rows at the sources, the scatter-add at the targets, the
  scaling of row v by D v and the bias, and between the layers the maximum with 0.  Each boundary's buffer contents are
  the host operations' results of the previous boundary's, and each region's output array is the dense layer of the
  arrays it finds, so the result buffer is the composition below.
-/
import proofs.«172544_j9491877724922_2_alg».proof.Proof.Spec

set_option maxRecDepth 16384

noncomputable section

namespace Cert.KernelIdeal.Spec

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)

/-! ## A called function's typed references: contents pass through them unchanged -/

theorem ofBuf_toBuf {T : BufTy} (x : TRef sig T) (v : T.Contents (Elt Ideal)) : x.ofBuf (x.toBuf v) = v := by
  simp [TRef.ofBuf, TRef.toBuf]

theorem ofBuf_cst2 (v : (⟨S_, .f32⟩ : BufTy).Contents (Elt Ideal)) :
    (TRef.of main_cst_2 : TRef sig ⟨S_, .f32⟩).ofBuf (Val := Elt Ideal) v = v := rfl
theorem ofBuf_v12 (v : (⟨S100000, .i1⟩ : BufTy).Contents (Elt Ideal)) :
    (TRef.of main_v12 : TRef sig ⟨S100000, .i1⟩).ofBuf (Val := Elt Ideal) v = v := rfl
theorem ofBuf_v13 (v : (⟨S100000, .f32⟩ : BufTy).Contents (Elt Ideal)) :
    (TRef.of main_v13 : TRef sig ⟨S100000, .f32⟩).ofBuf (Val := Elt Ideal) v = v := rfl
theorem toBuf_v14 (v : (⟨S100000, .f32⟩ : BufTy).Contents (Elt Ideal)) :
    (TRef.of main_v14 : TRef sig ⟨S100000, .f32⟩).toBuf (Val := Elt Ideal) v = v := rfl
theorem ofBuf_v32 (v : (⟨S100000x128, .f32⟩ : BufTy).Contents (Elt Ideal)) :
    (TRef.of main_v32 : TRef sig ⟨S100000x128, .f32⟩).ofBuf (Val := Elt Ideal) v = v := rfl
theorem toBuf_v33 (v : (⟨S100000x128, .f32⟩ : BufTy).Contents (Elt Ideal)) :
    (TRef.of main_v33 : TRef sig ⟨S100000x128, .f32⟩).toBuf (Val := Elt Ideal) v = v := rfl

/-! ## The first region's entry contents: the host operations before it, from the launch memory -/

theorem W3_v5 : W3 m ρ c (Proc.devRef .tc main_v5) = srcArr A1 := by
  show StableHlo.after hostOps0_2 (StableHlo.after hostOps0_1 (StableHlo.after hostOps0 (W0 m ρ c))) (Proc.devRef .tc main_v5) = _
  after_results_simp <;> rfl

theorem W3_v6 : W3 m ρ c (Proc.devRef .tc main_v6) = dstArr A1 := by
  show StableHlo.after hostOps0_2 (StableHlo.after hostOps0_1 (StableHlo.after hostOps0 (W0 m ρ c))) (Proc.devRef .tc main_v6) = _
  after_results_simp <;> rfl

/-- The target index array is complete after the first seven host operations. -/
theorem pre_v6 : StableHlo.after (List.take 7 hostOps0) (W0 m ρ c) (Proc.devRef .tc main_v6) = dstArr A1 := by
  simp only [hostOps0, List.take_succ_cons, List.take_zero]
  after_results_simp <;> rfl

theorem W3_v15 : W3 m ρ c (Proc.devRef .tc main_v15) = dinvCol (dstArr A1) := by
  show StableHlo.after hostOps0_2 (StableHlo.after hostOps0_1 (StableHlo.after (List.drop 7 hostOps0)
    (StableHlo.after (List.take 7 hostOps0) (W0 m ρ c)))) (Proc.devRef .tc main_v15) = _
  have h6 := pre_v6 m ρ c
  generalize StableHlo.after (List.take 7 hostOps0) (W0 m ρ c) = X at h6 ⊢
  simp only [hostOps0, List.drop_succ_cons, List.drop_zero]
  after_results_simp
  rw [h6]
  unfold dinvCol dinv deg col
  generalize Host.scatterAdd (F := Ideal) (φ := .f32) scatter_S100000_S1700000x1_S1700000_n_0_0_1 _ _ _ = DEG
  simp only [ofBuf_toBuf, ofBuf_cst2, ofBuf_v12, ofBuf_v13, toBuf_v14]
  rfl

theorem W3_v16 : W3 m ρ c (Proc.devRef .tc main_v16) = transpose S256x128 [1, 0] A2 transposes_S128x256_S256x128_1_0 := by
  show StableHlo.after hostOps0_2 (StableHlo.after hostOps0_1 (StableHlo.after hostOps0 (W0 m ρ c))) (Proc.devRef .tc main_v16) = _
  after_results_simp <;> rfl

theorem W3_arg0 : W3 m ρ c (Proc.devRef .tc main_arg0) = A0 := by
  show StableHlo.after hostOps0_2 (StableHlo.after hostOps0_1 (StableHlo.after hostOps0 (W0 m ρ c))) (Proc.devRef .tc main_arg0) = _
  after_results_simp <;> rfl

theorem W3_arg3 : W3 m ρ c (Proc.devRef .tc main_arg3) = A3 := by
  show StableHlo.after hostOps0_2 (StableHlo.after hostOps0_1 (StableHlo.after hostOps0 (W0 m ρ c))) (Proc.devRef .tc main_arg3) = _
  after_results_simp <;> rfl

theorem W3_arg4 : W3 m ρ c (Proc.devRef .tc main_arg4) = A4 := by
  show StableHlo.after hostOps0_2 (StableHlo.after hostOps0_1 (StableHlo.after hostOps0 (W0 m ρ c))) (Proc.devRef .tc main_arg4) = _
  after_results_simp <;> rfl

theorem W3_arg5 : W3 m ρ c (Proc.devRef .tc main_arg5) = A5 := by
  show StableHlo.after hostOps0_2 (StableHlo.after hostOps0_1 (StableHlo.after hostOps0 (W0 m ρ c))) (Proc.devRef .tc main_arg5) = _
  after_results_simp <;> rfl

/-! ## The first region's exit contents: its output array the dense layer, every other buffer as entered -/

theorem W4_v17 : W4 m ρ c (Proc.devRef .tc main_v17) = lin1 A0 A1 A2 := by
  refine (W4_arr m ρ c 3).trans ((Region0.final (V3 m ρ) c).trans ?_)
  show Region0.G (W3 m ρ c (Proc.devRef .tc main_arg0)) (W3 m ρ c (Proc.devRef .tc main_v16)) (W3 m ρ c (Proc.devRef .tc main_v15)) = _
  rw [W3_arg0, W3_v16, W3_v15]
  unfold lin1
  rfl

theorem W4_v5 : W4 m ρ c (Proc.devRef .tc main_v5) = srcArr A1 := (W4_of_ne m ρ c main_v5 (by decide)).trans (W3_v5 m ρ c)
theorem W4_v6 : W4 m ρ c (Proc.devRef .tc main_v6) = dstArr A1 := (W4_of_ne m ρ c main_v6 (by decide)).trans (W3_v6 m ρ c)
theorem W4_v15 : W4 m ρ c (Proc.devRef .tc main_v15) = dinvCol (dstArr A1) :=
  ((W4_arr m ρ c 2).trans (((dat0 (V3 m ρ) c).arrAt_in 2 rfl _).trans (A_eq0 (V3 m ρ) c 2))).trans (W3_v15 m ρ c)
theorem W4_arg3 : W4 m ρ c (Proc.devRef .tc main_arg3) = A3 := (W4_of_ne m ρ c main_arg3 (by decide)).trans (W3_arg3 m ρ c)
theorem W4_arg4 : W4 m ρ c (Proc.devRef .tc main_arg4) = A4 := (W4_of_ne m ρ c main_arg4 (by decide)).trans (W3_arg4 m ρ c)
theorem W4_arg5 : W4 m ρ c (Proc.devRef .tc main_arg5) = A5 := (W4_of_ne m ρ c main_arg5 (by decide)).trans (W3_arg5 m ρ c)

/-! ## The second region's entry contents -/

theorem W7_v33 : W7 m ρ c (Proc.devRef .tc main_v33) = hid A0 A1 A2 A3 := by
  show StableHlo.after hostOps1_2 (StableHlo.after hostOps1_1 (StableHlo.after hostOps1 (W4 m ρ c))) (Proc.devRef .tc main_v33) = _
  after_results_simp
  rw [W4_v17, W4_v5, W4_v6, W4_v15, W4_arg3]
  unfold hid post1 col wrap
  generalize (addf (F := Ideal) (φ := .f32) (mulf (Host.scatterAdd scatter_S100000x128_S1700000x1_S1700000x128_1_0_0_1 _ _ _) _) _) = Y
  simp only [ofBuf_toBuf, ofBuf_v32, toBuf_v33]

theorem W7_v34 : W7 m ρ c (Proc.devRef .tc main_v34) = transpose S128x64 [1, 0] A4 transposes_S64x128_S128x64_1_0 := by
  show StableHlo.after hostOps1_2 (StableHlo.after hostOps1_1 (StableHlo.after hostOps1 (W4 m ρ c))) (Proc.devRef .tc main_v34) = _
  after_results_simp
  rw [W4_arg4]

theorem W7_v5 : W7 m ρ c (Proc.devRef .tc main_v5) = srcArr A1 := by
  show StableHlo.after hostOps1_2 (StableHlo.after hostOps1_1 (StableHlo.after hostOps1 (W4 m ρ c))) (Proc.devRef .tc main_v5) = _
  after_results_simp
  exact W4_v5 m ρ c

theorem W7_v6 : W7 m ρ c (Proc.devRef .tc main_v6) = dstArr A1 := by
  show StableHlo.after hostOps1_2 (StableHlo.after hostOps1_1 (StableHlo.after hostOps1 (W4 m ρ c))) (Proc.devRef .tc main_v6) = _
  after_results_simp
  exact W4_v6 m ρ c

theorem W7_v15 : W7 m ρ c (Proc.devRef .tc main_v15) = dinvCol (dstArr A1) := by
  show StableHlo.after hostOps1_2 (StableHlo.after hostOps1_1 (StableHlo.after hostOps1 (W4 m ρ c))) (Proc.devRef .tc main_v15) = _
  after_results_simp
  exact W4_v15 m ρ c

theorem W7_arg5 : W7 m ρ c (Proc.devRef .tc main_arg5) = A5 := by
  show StableHlo.after hostOps1_2 (StableHlo.after hostOps1_1 (StableHlo.after hostOps1 (W4 m ρ c))) (Proc.devRef .tc main_arg5) = _
  after_results_simp
  exact W4_arg5 m ρ c

/-! ## The second region's exit contents -/

theorem W8_v35 : W8 m ρ c (Proc.devRef .tc main_v35) = lin2 (hid A0 A1 A2 A3) A1 A4 := by
  refine (W8_arr m ρ c 3).trans ((Region1.final (V7 m ρ) c).trans ?_)
  show Region1.G (W7 m ρ c (Proc.devRef .tc main_v33)) (W7 m ρ c (Proc.devRef .tc main_v34)) (W7 m ρ c (Proc.devRef .tc main_v15)) = _
  rw [W7_v33, W7_v34, W7_v15]
  unfold lin2
  rfl

theorem W8_v5 : W8 m ρ c (Proc.devRef .tc main_v5) = srcArr A1 := (W8_of_ne m ρ c main_v5 (by decide)).trans (W7_v5 m ρ c)
theorem W8_v6 : W8 m ρ c (Proc.devRef .tc main_v6) = dstArr A1 := (W8_of_ne m ρ c main_v6 (by decide)).trans (W7_v6 m ρ c)
theorem W8_v15 : W8 m ρ c (Proc.devRef .tc main_v15) = dinvCol (dstArr A1) :=
  ((W8_arr m ρ c 2).trans (((dat1 (V7 m ρ) c).arrAt_in 2 rfl _).trans (A_eq1 (V7 m ρ) c 2))).trans (W7_v15 m ρ c)
theorem W8_arg5 : W8 m ρ c (Proc.devRef .tc main_arg5) = A5 := (W8_of_ne m ρ c main_arg5 (by decide)).trans (W7_arg5 m ρ c)

/-! ## The result -/

theorem result : W9 m ρ c (Proc.devRef .tc main_v50) = out A0 A1 A2 A3 A4 A5 := by
  show StableHlo.after hostOps2 (W8 m ρ c) (Proc.devRef .tc main_v50) = _
  after_results_simp
  rw [W8_v35, W8_v5, W8_v6, W8_v15, W8_arg5]
  unfold out post2 col wrap
  generalize lin2 _ _ _ = P
  generalize dinvCol _ = Dc
  generalize srcArr _ = s
  generalize dstArr _ = d
  rfl

end Cert.KernelIdeal.Spec

end
-- ==== Proof.LibGatherRows.lean ====
/-
  Row gathers read at an index.

  `x[idx]` on the leading axis of an array lowers to a `stablehlo.gather` that collapses the leading operand axis,
  takes the whole of the remaining axis (if there is one) as the offset axis, and reads one start index per result
  row off a trailing unit axis of the index array.  Result element `(r, q)` is then the operand's element
  `(clamp (idx r), q)`: the start index read as a signed integer and clamped into `[0, N − 1]`, as the gather
  clamps every start index.  Three shapes of this are read here, every extent arbitrary:
    • a matrix `[N, C]` at indices `[R, 1]`, result `[R, C]`            (`gather_rows_apply`);
    • a vector `[N]` at indices `[R, 1]`, result `[R]`                  (`gather_elts_apply`);
    • a matrix `[N, C]` at indices `[A, B, 1]`, result `[A, B, C]`      (`gather_rows3_apply`).
  The dimension records are built from their well-formedness proof, so a printed record of the same lists is
  the record here by `rfl`.
-/
import Idealize.ShloMosaic.Lib.ValueIdx

noncomputable section

namespace Cert.GatherRows

open Idealize.ShloMosaic Idealize.ShloMosaic.ValueIdx

variable {α : Type}

/-- A start index word read signed and clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) : (clampRow N hN v).val = min v.toInt.toNat (N - 1) := rfl

/-! ## A matrix at `[R, 1]` indices -/

/-- The row gather's dimension numbers for an operand `[N, C]`, start indices `[R, 1]`, result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(r, q)` of the row gather is the operand's `(clamp (idx (r, 0)), q)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q) = x (ix2 (clampRow N hN (idx (ix2 r (0 : Fin 1)))) q) := by
  unfold Host.gather
  congr 1
  funext a
  refine Fin.ext ?_
  match a with
  | ⟨0, _⟩ =>
    show (rowsDims N C R wf).start (ix2 r q) idx 0 + (rowsDims N C R wf).batchCoord (ix2 r q) 0
      + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r q) idx 1 + (rowsDims N C R wf).batchCoord (ix2 r q) 1
      + (rowsDims N C R wf).offCoord (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-! ## A vector at `[R, 1]` indices -/

/-- The element gather's dimension numbers for an operand `[N]`, start indices `[R, 1]`, result `[R]`. -/
abbrev eltsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the element gather is the operand's `clamp (idx (r, 0))`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (eltsDims N R wf) x idx (ix1 r) = x (ix1 (clampRow N hN (idx (ix2 r (0 : Fin 1))))) := by
  unfold Host.gather
  congr 1
  funext a
  refine Fin.ext ?_
  match a with
  | ⟨0, _⟩ =>
    show (eltsDims N R wf).start (ix1 r) idx 0 + (eltsDims N R wf).batchCoord (ix1 r) 0
      + (eltsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (eltsDims N R wf).startIndexMap from List.mem_singleton.mpr rfl)]
    have hsi : (eltsDims N R wf).siIdx (ix1 r) ⟨List.idxOf (0 : Fin 1) (eltsDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## A matrix at `[A, B, 1]` indices -/

/-- The row gather's dimension numbers for an operand `[N, C]`, start indices `[A, B, 1]`, result `[A, B, C]`. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Result element `(a, b, q)` of the row gather is the operand's `(clamp (idx (a, b, 0)), q)`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q) = x (ix2 (clampRow N hN (idx (ix3 a b (0 : Fin 1)))) q) := by
  unfold Host.gather
  congr 1
  funext e
  refine Fin.ext ?_
  match e with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.GatherRows

end
-- ==== Proof.Weights.lean ====
/-
  The facts the normalised neighbourhood sum asks of this program's arrays.

  The weight D v is chosen by a comparison: where the degree count x is positive it is 1 / sqrt x — a positive real
  for a positive real x, and 0 for x = +∞ — and elsewhere it is 0; so it is a non-negative real whatever the count
  is.  The [N, 1] column holds D v in row v.  An edge whose target index, read signed, is a node v in [0, N) has a
  target index that is not negative, so counting it from the end leaves it alone, and clamping it into [0, N − 1]
  gives v again: the weight gathered at the target is D v.
-/
import proofs.«172544_j9491877724922_2_alg».proof.Proof.Spec
import proofs.«172544_j9491877724922_2_alg».proof.Proof.LibGatherRows

set_option maxRecDepth 16384

noncomputable section

namespace Cert.KernelIdeal.Spec

open Cert.KernelIdeal Cert.KernelIdeal.Gen
open Idealize.ShloMosaic Idealize.ShloMosaic.ValueIdx

/-- A splat of the zero word is 0 everywhere. -/
theorem zero_splat {t : Shape} (h : S_.BroadcastsInDim t ![]) (i : t.Idx) :
    broadcastInDim t ![] h (constant (F := Ideal) S_ .f32 0x00000000#32) i = 0 :=
  Ideal.ofBits_zero_f32

/-- 1 / sqrt x where x > 0, else 0, is a non-negative real for every extended real x. -/
theorem weight_real (x : EReal) :
    0 ≤ Scalar.select (Ideal.cmp .ogt x 0) (Ideal.rsqrt x) (0 : EReal)
    ∧ Scalar.select (Ideal.cmp .ogt x 0) (Ideal.rsqrt x) (0 : EReal) ≠ ⊤ := by
  unfold Ideal.cmp
  dsimp only
  by_cases hx : (0 : EReal) < x
  · rw [decide_eq_true hx]
    show 0 ≤ Ideal.rsqrt x ∧ Ideal.rsqrt x ≠ ⊤
    induction x using EReal.rec with
    | bot => exact absurd hx (by simp)
    | coe r =>
      have hr : 0 < r := by exact_mod_cast hx
      rw [Ideal.rsqrt_coe, if_neg (not_lt.2 hr.le), if_neg hr.ne']
      exact ⟨by exact_mod_cast inv_nonneg.2 (Real.sqrt_nonneg r), EReal.coe_ne_top _⟩
    | top => exact ⟨le_refl _, EReal.zero_ne_top⟩
  · rw [decide_eq_false hx]
    exact ⟨le_refl _, EReal.zero_ne_top⟩

/-- The same, in the comparison's and the host square root's own spelling. -/
theorem weight_real' (x : Ideal .f32) :
    0 ≤ Scalar.select (FloatOps.cmpf (F := Ideal) (φ := .f32) CmpFPredicate.ogt x 0) (Ideal.rsqrt x) (0 : Ideal .f32)
    ∧ Scalar.select (FloatOps.cmpf (F := Ideal) (φ := .f32) CmpFPredicate.ogt x 0) (Ideal.rsqrt x) (0 : Ideal .f32) ≠ ⊤ := by
  have e1 : FloatOps.cmpf (F := Ideal) (φ := .f32) CmpFPredicate.ogt x 0 = Ideal.cmp .ogt x 0 := rfl
  rw [e1]
  exact weight_real x

/-- The host's reciprocal square root of an array, at an index. -/
theorem host_rsqrt_apply {s : Shape} (D : FVec Ideal s .f32) (i : s.Idx) :
    Host.rsqrt (F := Ideal) (φ := .f32) D i = Ideal.rsqrt (D i) := rfl

/-- Every node's weight is a non-negative real. -/
theorem dinv_real (dst : IVec S1700000 32) (v : Fin 100000) :
    0 ≤ dinv dst (ix1 v) ∧ dinv dst (ix1 v) ≠ ⊤ := by
  unfold dinv
  rw [select_apply, cmpf_apply]
  generalize deg dst = D
  simp only [id_eq]
  rw [zero_splat, host_rsqrt_apply]
  exact weight_real' (D (ix1 v))

/-- Row v of the weight column is the weight of node v. -/
theorem dinvCol_apply (dst : IVec S1700000 32) (v : Fin 100000) :
    dinvCol dst (ix2 v (0 : Fin 1)) = dinv dst (ix1 v) := by
  unfold dinvCol
  generalize dinv dst = D
  refine shapeCast_apply D _ (ix2 v (0 : Fin 1)) (ix1 v) ?_
  rw [Shape.rowMajor_val_one, Shape.rowMajor_val_two]
  show v.val = v.val * 1 + 0
  omega

/-- Row e of an index vector's [E, 1] column is entry e. -/
theorem col_apply (s : IVec S1700000 32) (e : Fin 1700000) : col s (ix2 e (0 : Fin 1)) = s (ix1 e) := by
  unfold col
  refine broadcastInDim_apply _ _ s (ix2 e (0 : Fin 1)) (ix1 e) fun a => ?_
  match a with
  | ⟨0, _⟩ => rfl

/-- A target index that names node v keeps naming it after the count-from-the-end and the clamp of a gather. -/
theorem target_row (dst : IVec S1700000 32) (e : Fin 1700000) (v : Fin 100000)
    (h : (col dst (ix2 e (0 : Fin 1))).toInt = (v.val : Int)) :
    GatherRows.clampRow 100000 (by decide) (col (wrap dst) (ix2 e (0 : Fin 1))) = v := by
  rw [col_apply] at h ⊢
  have hv := v.isLt
  have hw : wrap dst (ix1 e) = dst (ix1 e) := by
    unfold wrap
    rw [select_apply]
    show Scalar.select (IntOp.cmpi .slt (dst (ix1 e)) 0#32) _ _ = _
    have : IntOp.cmpi .slt (dst (ix1 e)) 0#32 = 0#1 := by
      unfold IntOp.cmpi
      dsimp only
      rw [BitVec.slt, show (0#32 : BitVec 32).toInt = 0 from rfl, h]
      have : ¬ ((v.val : Int) < 0) := by omega
      simp [this]
    rw [this, select_zero]
  rw [hw]
  refine Fin.ext ?_
  rw [GatherRows.clampRow_val, h]
  show min ((v.val : Int)).toNat (100000 - 1) = v.val
  rw [Int.toNat_natCast]
  omega

end Cert.KernelIdeal.Spec

end
-- ==== Proof.LibScatterScale.lean ====
/-
  A scatter-add against a scaling of its result.

  On the extended reals the host's accumulating scatter is, at each operand element i, the operand's value plus the
  sum of the updates that land on i.  Multiplying that sum by a factor c distributes over it when c is a real
  number that is not negative (at a negative factor, or at an infinite one, an infinite sum of mixed signs breaks
  the law).  So if the operand is 0 at i and every update that lands on i is, on the other side, the same update
  times c, the two scatters differ at i by the factor c.

  For the scatter of rows  z.at[idx].add(u)  — operand [N, C], one start index per update row in an [E, 1] index
  array, updates [E, C] — an update (e, f) that lands on (v, f') has v as its start index read signed.  With a row
  gather on the way in, this gives the identity behind a normalised neighbourhood sum: scaling row v of the result
  by D v, and every gathered row by D at its source, is the same as scaling each message by D (source) · D (target)
  before the sum, for any D whose entries are non-negative reals.
-/
import Idealize.ShloMosaic.PureOps.Ideal.Laws
import Idealize.ShloMosaic.Lib.ValueIdx
import Idealize.ShloMosaic.Lib.Pipeline.Value
import proofs.«172544_j9491877724922_2_alg».proof.Proof.LibGatherRows

noncomputable section

namespace Cert.ScatterScale

open Idealize.ShloMosaic Idealize.ShloMosaic.ValueIdx Cert.GatherRows

/-- A finite sum times a non-negative real factor is the sum of the products. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- Into an operand that is 0 at i: if every update landing on i is, on the primed side, the update times c, the
    primed scatter-add at i is the other one times c. -/
theorem scatterAdd_scale {s si su : Shape} (d : ScatterDims s si su) {w : Nat} (x : s.Idx → EReal) (idx : IVec si w)
    (u u' : su.Idx → EReal) (i : s.Idx) (c : EReal) (h0 : 0 ≤ c) (ht : c ≠ ⊤) (hx : x i = 0)
    (hu : ∀ j, d.resultIdx? j idx = some i → u' j = u j * c) :
    Ideal.hostScatterAdd d x idx u' i = Ideal.hostScatterAdd d x idx u i * c := by
  unfold Ideal.hostScatterAdd
  rw [hx, zero_add, zero_add, sum_mul_of_nonneg _ _ h0 ht]
  exact Finset.sum_congr rfl fun j hj => hu j (Finset.mem_filter.mp hj).2

/-- The dimension numbers of a scatter of rows: operand [N, C], start indices [E, 1], updates [E, C]. -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element of row e that lands on an operand element of row v has v as its start index, read signed. -/
theorem land_row {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) (v : Fin N) (f' : Fin C)
    (h : (rowsDims N C E wf).resultIdx? (ix2 e f) idx = some (ix2 v f')) :
    (idx (ix2 e (0 : Fin 1))).toInt = (v.val : Int) := by
  unfold ScatterDims.resultIdx? at h
  split at h
  · rename_i hall
    have h0 := hall 0
    have hi := congrFun (Option.some.inj h) 0
    have hi0 : ((rowsDims N C E wf).start (ix2 e f) idx 0 + (rowsDims N C E wf).window (ix2 e f) 0).toNat = v.val :=
      congrArg Fin.val hi
    have hs : (rowsDims N C E wf).start (ix2 e f) idx 0 = (idx (ix2 e (0 : Fin 1))).toInt := by
      unfold ScatterDims.start
      rw [dif_pos (show (0 : Fin 2) ∈ (rowsDims N C E wf).scatterDimsToOperandDims from List.mem_singleton.mpr rfl)]
      have hsi : (rowsDims N C E wf).siIdx (ix2 e f) ⟨List.idxOf (0 : Fin 2) (rowsDims N C E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw : (rowsDims N C E wf).window (ix2 e f) 0 = 0 := by
      unfold ScatterDims.window
      rw [dif_neg (show (0 : Fin 2) ∉ (rowsDims N C E wf).sKept from fun hm =>
        (List.mem_filter.mp hm).2 |> fun hn => by simp at hn)]
    rw [hs, hw] at hi0 h0
    omega
  · cases h

end Cert.ScatterScale

end
-- ==== Proof.LibNormSum.lean ====
/-
  A normalised neighbourhood sum, two ways.

  Nodes 0 … N − 1 carry feature rows H (an [N, C] array) and a weight D per node; each of E edges names a source
  row (a start index array SI, read signed and clamped as a gather reads it) and a target row (DI, read signed and
  not clamped, as a scatter reads it; an edge whose target lies outside [0, N) is dropped).  The sum over the edges
  into a node v of  H (source) · D (source) · D (v)  can be computed with the factor D (v) taken out of the sum:
  scale row u of H by D u once, gather, scatter-add, and scale row v of the result by D v; or with the factor
  D (source) · D (target) multiplied into every message before the scatter-add, the target's weight gathered at the
  target index array DW, which names v on every edge that lands on v.  The two agree whenever every D v is a
  non-negative real: the products are reassociated edge by edge, and the common factor D v distributes over the sum
  at v.
-/
import proofs.«172544_j9491877724922_2_alg».proof.Proof.LibScatterScale

noncomputable section

namespace Cert.NormSum

open Idealize.ShloMosaic Idealize.ShloMosaic.ValueIdx

/-- An [N, 1] column repeated across C columns reads the column's entry of the row. -/
theorem col_apply {N C : Nat} (gc : (⟨2, ![N, 1]⟩ : Shape).BroadcastsInDim ⟨2, ![N, C]⟩ ![0, 1])
    (Dc : (⟨2, ![N, 1]⟩ : Shape).Idx → EReal) (v : Fin N) (f : Fin C) :
    broadcastInDim ⟨2, ![N, C]⟩ ![0, 1] gc Dc (ix2 v f) = Dc (ix2 v (0 : Fin 1)) := by
  have hv := v.isLt
  refine broadcastInDim_apply _ gc _ (ix2 v f) (ix2 v (0 : Fin 1)) fun a => ?_
  match a with
  | ⟨0, _⟩ =>
    show v.val = if N = 1 then 0 else v.val
    split <;> omega
  | ⟨1, _⟩ => rfl

/-- An [E] vector viewed as an [E, 1] column and repeated across C columns reads the vector's entry of the row. -/
theorem vec_col_apply {E C : Nat} (b1 : (⟨1, ![E]⟩ : Shape).BroadcastsInDim ⟨2, ![E, 1]⟩ ![0])
    (b2 : (⟨2, ![E, 1]⟩ : Shape).BroadcastsInDim ⟨2, ![E, C]⟩ ![0, 1])
    (X : (⟨1, ![E]⟩ : Shape).Idx → EReal) (e : Fin E) (f : Fin C) :
    broadcastInDim ⟨2, ![E, C]⟩ ![0, 1] b2 (broadcastInDim ⟨2, ![E, 1]⟩ ![0] b1 X) (ix2 e f) = X (ix1 e) := by
  have he := e.isLt
  refine (col_apply b2 _ e f).trans ?_
  refine broadcastInDim_apply _ b1 X (ix2 e (0 : Fin 1)) (ix1 e) fun a => ?_
  match a with
  | ⟨0, _⟩ =>
    show e.val = if E = 1 then 0 else e.val
    split <;> omega

/-- The factor of the target row taken out of the sum, against the factor of source and target multiplied into every
    message. -/
theorem scaled_sum {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (H Z : (⟨2, ![N, C]⟩ : Shape).Idx → EReal) (D : (⟨1, ![N]⟩ : Shape).Idx → EReal)
    (Dc : (⟨2, ![N, 1]⟩ : Shape).Idx → EReal)
    (hDc : ∀ v : Fin N, Dc (ix2 v (0 : Fin 1)) = D (ix1 v))
    (hD : ∀ v : Fin N, 0 ≤ D (ix1 v) ∧ D (ix1 v) ≠ ⊤)
    (hZ : ∀ i, Z i = 0)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v)
    (gc : (⟨2, ![N, 1]⟩ : Shape).BroadcastsInDim ⟨2, ![N, C]⟩ ![0, 1])
    (b1 : (⟨1, ![E]⟩ : Shape).BroadcastsInDim ⟨2, ![E, 1]⟩ ![0])
    (b2 : (⟨2, ![E, 1]⟩ : Shape).BroadcastsInDim ⟨2, ![E, C]⟩ ![0, 1]) :
    mulf (F := Ideal) (φ := .f32)
        (Host.scatterAdd (F := Ideal) (φ := .f32) (ScatterScale.rowsDims N C E wfS) Z DI
          (Host.gather (GatherRows.rowsDims N C E wfG)
            (mulf (F := Ideal) (φ := .f32) H (broadcastInDim ⟨2, ![N, C]⟩ ![0, 1] gc Dc)) SI))
        (broadcastInDim ⟨2, ![N, C]⟩ ![0, 1] gc Dc)
      = Host.scatterAdd (F := Ideal) (φ := .f32) (ScatterScale.rowsDims N C E wfS) Z DI
          (mulf (F := Ideal) (φ := .f32) (Host.gather (GatherRows.rowsDims N C E wfG) H SI)
            (broadcastInDim ⟨2, ![E, C]⟩ ![0, 1] b2 (broadcastInDim ⟨2, ![E, 1]⟩ ![0] b1
              (mulf (F := Ideal) (φ := .f32) (Host.gather (GatherRows.eltsDims N E wfG1) D SI)
                (Host.gather (GatherRows.eltsDims N E wfG1) D DW))))) := by
  funext i
  obtain ⟨v, f, rfl⟩ : ∃ (v : Fin N) (f : Fin C), i = ix2 v f := ⟨i 0, i 1, eq_ix2 i⟩
  have hc : ∀ (u : Fin N) (g : Fin C), broadcastInDim ⟨2, ![N, C]⟩ ![0, 1] gc Dc (ix2 u g) = D (ix1 u) :=
    fun u g => (col_apply gc Dc u g).trans (hDc u)
  rw [mulf_apply, hc]
  symm
  refine ScatterScale.scatterAdd_scale _ Z DI _ _ (ix2 v f) (D (ix1 v)) (hD v).1 (hD v).2 (hZ _) fun j hj => ?_
  obtain ⟨e, f', rfl⟩ : ∃ (e : Fin E) (f' : Fin C), j = ix2 e f' := ⟨j 0, j 1, eq_ix2 j⟩
  have hv := ScatterScale.land_row wfS DI e f' v f hj
  rw [mulf_apply, GatherRows.gather_rows_apply hN, GatherRows.gather_rows_apply hN, mulf_apply, hc, vec_col_apply,
    mulf_apply, GatherRows.gather_elts_apply hN, GatherRows.gather_elts_apply hN, hDW e v hv, mul_assoc]

end Cert.NormSum

end
-- ==== Proof.Bridge.lean ====
/-
  The kernel's result is the reference's normalised sum.

  The reference multiplies every message by D (source) · D (target) before adding the messages up at their targets;
  the kernel scales row u of the dense product by D u before the gather and row v of the sum by D v after it.  Per
  layer the two agree by the normalised-sum identity: every weight D v is a non-negative real, the weight column holds
  D v in row v, the accumulator starts at 0, and an edge that lands on node v has a target index that still names v
  after the count-from-the-end and the clamp of the reference's gather.  The dense part of a layer, as the regions
  leave it, is the host's matrix product with row v scaled by D v.  The second layer is applied to the same first
  layer's output on both sides.
-/
import proofs.«172544_j9491877724922_2_alg».proof.Proof.Weights
import proofs.«172544_j9491877724922_2_alg».proof.Proof.LibNormSum

set_option maxRecDepth 16384

noncomputable section

namespace Cert.KernelIdeal.Spec

open Cert.KernelIdeal Cert.KernelIdeal.Gen
open Idealize.ShloMosaic Idealize.ShloMosaic.ValueIdx

/-- The reference's per-edge factor D (source) · D (target), the weights gathered at the two index arrays. -/
def norm (src dst : IVec S1700000 32) : FVec Ideal S1700000 .f32 :=
  mulf (Host.gather (GatherRows.eltsDims 100000 1700000 (by decide)) (dinv dst) (col (wrap src)))
    (Host.gather (GatherRows.eltsDims 100000 1700000 (by decide)) (dinv dst) (col (wrap dst)))

/-- The reference's first aggregation of the rows H: messages scaled per edge, added up at the targets, plus the bias. -/
def rlayer1 (H : FVec Ideal S100000x128 .f32) (src dst : IVec S1700000 32) (b : FVec Ideal S128 .f32) :
    FVec Ideal S100000x128 .f32 :=
  addf
    (Host.scatterAdd scatter_S100000x128_S1700000x1_S1700000x128_1_0_0_1
      (broadcastInDim S100000x128 ![] bcast_S_S100000x128 (constant S_ .f32 0x00000000#32)) (col dst)
      (mulf (Host.gather gather_S100000x128_S1700000x1_S1700000x128_1_0_n_n_0_1_1128 H (col (wrap src)))
        (broadcastInDim S1700000x128 ![0, 1] (Tile.bidCol 1700000 128)
          (broadcastInDim S1700000x1 ![0] bcast_S1700000_S1700000x1_0 (norm src dst)))))
    (broadcastInDim S100000x128 ![0, 1] bcast_S1x128_S100000x128_0_1 (broadcastInDim S1x128 ![1] bcast_S128_S1x128_1 b))

/-- The reference's second aggregation. -/
def rlayer2 (H : FVec Ideal S100000x64 .f32) (src dst : IVec S1700000 32) (b : FVec Ideal S64 .f32) :
    FVec Ideal S100000x64 .f32 :=
  addf
    (Host.scatterAdd scatter_S100000x64_S1700000x1_S1700000x64_1_0_0_1
      (broadcastInDim S100000x64 ![] bcast_S_S100000x64 (constant S_ .f32 0x00000000#32)) (col dst)
      (mulf (Host.gather gather_S100000x64_S1700000x1_S1700000x64_1_0_n_n_0_1_164 H (col (wrap src)))
        (broadcastInDim S1700000x64 ![0, 1] (Tile.bidCol 1700000 64)
          (broadcastInDim S1700000x1 ![0] bcast_S1700000_S1700000x1_0 (norm src dst)))))
    (broadcastInDim S100000x64 ![0, 1] bcast_S1x64_S100000x64_0_1 (broadcastInDim S1x64 ![1] bcast_S64_S1x64_1 b))

/-- The reference's result as one term of the six arguments. -/
def refOut (x : FVec Ideal S100000x256 .f32) (a1 : IVec S2x1600000 32) (w1 : FVec Ideal S128x256 .f32) (b1 : FVec Ideal S128 .f32)
    (w2 : FVec Ideal S64x128 .f32) (b2 : FVec Ideal S64 .f32) : FVec Ideal S100000x64 .f32 :=
  rlayer2
    (Host.dotGeneral (φ₁ := .f32) (φ₂ := .f32) (DotDims.plain 100000 128 64) none
      (maximumf
        (rlayer1
          (Host.dotGeneral (φ₁ := .f32) (φ₂ := .f32) (DotDims.plain 100000 256 128) none x
            (transpose S256x128 [1, 0] w1 transposes_S128x256_S256x128_1_0))
          (srcArr a1) (dstArr a1) b1)
        (broadcastInDim S100000x128 ![] bcast_S_S100000x128 (constant S_ .f32 0x00000000#32)))
      (transpose S128x64 [1, 0] w2 transposes_S64x128_S128x64_1_0))
    (srcArr a1) (dstArr a1) b2

/-- The first region's layer is the host's product with row v scaled by D v. -/
theorem G0_eq (X : FVec Ideal S100000x256 .f32) (W : FVec Ideal S256x128 .f32) (D : FVec Ideal S100000x1 .f32) :
    Region0.G X W D = mulf (Host.dotGeneral (φ₁ := .f32) (φ₂ := .f32) (DotDims.plain 100000 256 128) none X W)
      (broadcastInDim S100000x128 ![0, 1] bcast_S100000x1_S100000x128_0_1 D) := rfl

/-- The second region's layer likewise. -/
theorem G1_eq (X : FVec Ideal S100000x128 .f32) (W : FVec Ideal S128x64 .f32) (D : FVec Ideal S100000x1 .f32) :
    Region1.G X W D = mulf (Host.dotGeneral (φ₁ := .f32) (φ₂ := .f32) (DotDims.plain 100000 128 64) none X W)
      (broadcastInDim S100000x64 ![0, 1] bcast_S100000x1_S100000x64_0_1 D) := rfl

/-- The kernel's first aggregation is the reference's. -/
theorem agg1 (H : FVec Ideal S100000x128 .f32) (src dst : IVec S1700000 32) :
    mulf (F := Ideal) (φ := .f32)
      (Host.scatterAdd scatter_S100000x128_S1700000x1_S1700000x128_1_0_0_1
        (broadcastInDim S100000x128 ![] bcast_S_S100000x128 (constant S_ .f32 0x00000000#32)) (col dst)
        (Host.gather gather_S100000x128_S1700000x1_S1700000x128_1_0_n_n_0_1_1128
          (mulf H (broadcastInDim S100000x128 ![0, 1] bcast_S100000x1_S100000x128_0_1 (dinvCol dst))) (col (wrap src))))
      (broadcastInDim S100000x128 ![0, 1] bcast_S100000x1_S100000x128_0_1 (dinvCol dst))
    = Host.scatterAdd scatter_S100000x128_S1700000x1_S1700000x128_1_0_0_1
        (broadcastInDim S100000x128 ![] bcast_S_S100000x128 (constant S_ .f32 0x00000000#32)) (col dst)
        (mulf (Host.gather gather_S100000x128_S1700000x1_S1700000x128_1_0_n_n_0_1_1128 H (col (wrap src)))
          (broadcastInDim S1700000x128 ![0, 1] (Tile.bidCol 1700000 128)
            (broadcastInDim S1700000x1 ![0] bcast_S1700000_S1700000x1_0 (norm src dst)))) :=
  NormSum.scaled_sum (N := 100000) (C := 128) (E := 1700000) (by decide)
    scatter_S100000x128_S1700000x1_S1700000x128_1_0_0_1_wf gather_S100000x128_S1700000x1_S1700000x128_1_0_n_n_0_1_1128_wf (by decide)
    H _ (dinv dst) (dinvCol dst) (dinvCol_apply dst) (dinv_real dst) (fun i => zero_splat _ i)
    (col (wrap src)) (col dst) (col (wrap dst)) (target_row dst) _ _ _

/-- The kernel's second aggregation is the reference's. -/
theorem agg2 (H : FVec Ideal S100000x64 .f32) (src dst : IVec S1700000 32) :
    mulf (F := Ideal) (φ := .f32)
      (Host.scatterAdd scatter_S100000x64_S1700000x1_S1700000x64_1_0_0_1
        (broadcastInDim S100000x64 ![] bcast_S_S100000x64 (constant S_ .f32 0x00000000#32)) (col dst)
        (Host.gather gather_S100000x64_S1700000x1_S1700000x64_1_0_n_n_0_1_164
          (mulf H (broadcastInDim S100000x64 ![0, 1] bcast_S100000x1_S100000x64_0_1 (dinvCol dst))) (col (wrap src))))
      (broadcastInDim S100000x64 ![0, 1] bcast_S100000x1_S100000x64_0_1 (dinvCol dst))
    = Host.scatterAdd scatter_S100000x64_S1700000x1_S1700000x64_1_0_0_1
        (broadcastInDim S100000x64 ![] bcast_S_S100000x64 (constant S_ .f32 0x00000000#32)) (col dst)
        (mulf (Host.gather gather_S100000x64_S1700000x1_S1700000x64_1_0_n_n_0_1_164 H (col (wrap src)))
          (broadcastInDim S1700000x64 ![0, 1] (Tile.bidCol 1700000 64)
            (broadcastInDim S1700000x1 ![0] bcast_S1700000_S1700000x1_0 (norm src dst)))) :=
  NormSum.scaled_sum (N := 100000) (C := 64) (E := 1700000) (by decide)
    scatter_S100000x64_S1700000x1_S1700000x64_1_0_0_1_wf gather_S100000x64_S1700000x1_S1700000x64_1_0_n_n_0_1_164_wf (by decide)
    H _ (dinv dst) (dinvCol dst) (dinvCol_apply dst) (dinv_real dst) (fun i => zero_splat _ i)
    (col (wrap src)) (col dst) (col (wrap dst)) (target_row dst) _ _ _

/-- The kernel's result is the reference's term of the same arguments. -/
theorem out_eq (x : FVec Ideal S100000x256 .f32) (a1 : IVec S2x1600000 32) (w1 : FVec Ideal S128x256 .f32) (b1 : FVec Ideal S128 .f32)
    (w2 : FVec Ideal S64x128 .f32) (b2 : FVec Ideal S64 .f32) : out x a1 w1 b1 w2 b2 = refOut x a1 w1 b1 w2 b2 := by
  unfold out post2 lin2 hid post1 lin1 refOut rlayer2 rlayer1
  rw [G0_eq, G1_eq, agg1, agg2]

end Cert.KernelIdeal.Spec

end
-- ==== Proof.RefBridge.lean ====
/-
  The reference's run ends at the same normalised sum.

  The reference program's result, as its run leaves it, is one long term of the six argument arrays in which every
  shared array is written out where it is used: the index arrays, the degree count and the weights several times
  each.  Read with those arrays named once, it is the sum of messages scaled by D (source) · D (target), added up at
  the targets, plus the bias, twice, with the maximum with 0 between the layers: the same term, operation for
  operation, that the kernel's result was shown equal to.
-/
import proofs.«172544_j9491877724922_2_alg».proof.Proof.Bridge
import proofs.«172544_j9491877724922_2_alg».proof.Proof.RefRunP

set_option maxRecDepth 16384

noncomputable section

namespace Cert.RefBridge

open Idealize.ShloMosaic Idealize.ShloMosaic.TcCoe Idealize.SL.Sem

/-- The reference run's result term is the reference-shaped term of the same six arguments. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v89 (F := Ideal) m c
      = Cert.KernelIdeal.Spec.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v89
  generalize (m ((c.tc : Thread Cert.ReferenceIdeal.nD Cert.ReferenceIdeal.τ).loc Cert.ReferenceIdeal.main_arg0)) = a0
  generalize (m ((c.tc : Thread Cert.ReferenceIdeal.nD Cert.ReferenceIdeal.τ).loc Cert.ReferenceIdeal.main_arg1)) = a1
  generalize (m ((c.tc : Thread Cert.ReferenceIdeal.nD Cert.ReferenceIdeal.τ).loc Cert.ReferenceIdeal.main_arg2)) = a2
  generalize (m ((c.tc : Thread Cert.ReferenceIdeal.nD Cert.ReferenceIdeal.τ).loc Cert.ReferenceIdeal.main_arg3)) = a3
  generalize (m ((c.tc : Thread Cert.ReferenceIdeal.nD Cert.ReferenceIdeal.τ).loc Cert.ReferenceIdeal.main_arg4)) = a4
  generalize (m ((c.tc : Thread Cert.ReferenceIdeal.nD Cert.ReferenceIdeal.τ).loc Cert.ReferenceIdeal.main_arg5)) = a5
  unfold Cert.KernelIdeal.Spec.refOut Cert.KernelIdeal.Spec.rlayer2 Cert.KernelIdeal.Spec.rlayer1 Cert.KernelIdeal.Spec.norm
    Cert.KernelIdeal.Spec.dinv Cert.KernelIdeal.Spec.deg Cert.KernelIdeal.Spec.wrap Cert.KernelIdeal.Spec.col
    Cert.KernelIdeal.Spec.srcArr Cert.KernelIdeal.Spec.dstArr
  rfl

end Cert.RefBridge

end
-- ==== Proof.lean ====
/-
  Two graph-convolution layers with symmetric degree normalisation: the kernel program against its plain reference.

  With self loops added, deg v counts the edges into node v and D v = 1 / sqrt (deg v) (0 where the count is not
  positive).  A layer sends along every edge the row (X · Wᵀ) (source) scaled by D (source) · D (target), adds the
  messages up at their targets and adds a bias; the first layer ends with the maximum with 0.  The reference does
  exactly that.  The kernel computes X · Wᵀ with row u already scaled by D u in a row-tiled dense region, gathers and
  adds the scaled rows, and scales row v of the sum by D v afterwards.  On the extended reals the two agree because
  every D v is a non-negative real — 1 / sqrt x is a positive real for a positive real x and 0 at +∞ — and a
  non-negative real factor distributes over a sum of extended reals; the rounding of the dense product's operands to a
  shorter format is the identity there.  Nothing is asked of the inputs beyond what the claim states: the index
  arrays may hold any words, since both programs read them through the same gathers and scatters.

  The frames of the two kernel programs are the generated ones; the reference's frame is its run with the result
  dropped; the idealization rewrote nothing, so the preservation conjunct is trivial.  For the value conjunct the
  kernel's run is read with its result buffer kept, boundary by boundary down to the six arguments, each region's
  output array being the dense layer of the arrays it finds; the reference's run ends at the reference-shaped term of
  the same arguments; and the two terms are equal by the normalised-sum identity, once per layer.
-/
import proofs.«172544_j9491877724922_2_alg».proof.Defs
import proofs.«172544_j9491877724922_2_alg».proof.Proof.Gen.Kernel
import proofs.«172544_j9491877724922_2_alg».proof.Proof.Gen.Kernel.Frame
import proofs.«172544_j9491877724922_2_alg».proof.Proof.Gen.KernelIdeal
import proofs.«172544_j9491877724922_2_alg».proof.Proof.Gen.KernelIdeal.Frame
import proofs.«172544_j9491877724922_2_alg».proof.Proof.Gen.ReferenceIdeal
import proofs.«172544_j9491877724922_2_alg».proof.Proof.Gen.Pre_finite_inputs
import proofs.«172544_j9491877724922_2_alg».proof.Proof.KernelRun
import proofs.«172544_j9491877724922_2_alg».proof.Proof.KernelValue
import proofs.«172544_j9491877724922_2_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs end with the normalised two-layer sum of those
    arguments in their result arrays. -/
theorem algebraic : Cert.algebraic_KernelIdeal_ReferenceIdeal := by
  intro m ρ m' ρ' _ hagree
  refine ⟨fun c => Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Spec.result m ρ c), (h c).2⟩)
      (Cert.KernelIdeal.RunValue.run m ρ)
  · refine (θ_run Cert.ReferenceIdeal.defs _ _).mono (fun r h c => ⟨(h c).1.trans ?_, (h c).2⟩)
      (Cert.ReferenceIdeal.ValueP.run (F := Ideal) m' ρ')
    show Cert.ReferenceIdeal.ValueP.res_main_v89 (F := Ideal) m' c = Cert.KernelIdeal.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    rw [Cert.RefBridge.res_eq m' c, (hagree c).1, (hagree c).2.1, (hagree c).2.2.1, (hagree c).2.2.2.1,
      (hagree c).2.2.2.2.1, (hagree c).2.2.2.2.2, Cert.KernelIdeal.Spec.out_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
